-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg4
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x7 .f32) (main_arg4 : FVec F S7 .f32) (main_arg5 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg3
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x7 : Shape := ⟨2, ![100000, 7]⟩
abbrev S5000x7 : Shape := ⟨2, ![5000, 7]⟩
abbrev S3300000x7 : Shape := ⟨2, ![3300000, 7]⟩
abbrev S1x7 : Shape := ⟨2, ![1, 7]⟩

abbrev nBuf : Space → Nat
  | .hbm => 89
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x7, .f32⟩
  | .hbm, ⟨4, _⟩ => ⟨S7, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x7, .f32⟩
  | .local _ .vmem, ⟨8, _⟩ => ⟨S5000x7, .f32⟩
  | .local _ .vmem, ⟨9, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x7_S5000x7_1_0_0_1_n_n_wf : DotDims.WF S5000x16 S16x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x7.size a ≤ S100000x7.size a
  hwx1_2 : ∀ i : grid1.Coords, EltTy.bits .f32 = 32 ∨ (Rect.block (s := S100000x7) S5000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 89
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x7, .f32⟩
  | .hbm, ⟨4, _⟩ => ⟨S7, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The kernel program's run with every buffer named.

  @main of the kernel program is three stretches of host operations, the first matrix-product region, two more
  stretches, the second matrix-product region and a last stretch. The contents of the TensorCore's buffers at each
  boundary are a fold through @main from the launch memory: a host stretch applies its operations in order, a region
  replaces its output array by what its grid points wrote back and leaves every other buffer alone. This module runs
  the program through the library's launch theorem for a sequence of host stretches and kernel regions and keeps, of
  the final state, ALL of it: every unscoped buffer of every core ends at the last boundary's contents. The value
  claim reads its two results there; the frame claim reads the six arguments.
-/
import proofs.«180533_j54262616818367_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel program terminates without a fault,
    and in its final state every unscoped buffer `b` of every core `c` holds the last boundary's contents
    `Gen.W8 m ρ c b`: the fold of the six host stretches and the two regions' write-backs over the launch memory. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W8 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c b hb => h c _ (mem_uc b hb))

end Cert.KernelIdeal.Whole

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.Region0.lean ====
/-
  The first matrix-product region: what it leaves in its output array.

  The region's grid has 20 points. Point t fetches rows 5000·t … 5000·t + 4999 of the left operand (all 512 columns)
  and the whole right operand (512 × 16), multiplies them into a zero accumulator and writes the 5000 × 16 product
  back to the same rows of the output. A row of a matrix product depends on the same row of the left factor alone, so
  what point t writes back is rows 5000·t … of the product of the WHOLE arrays; the 20 row blocks tile the 100000
  rows; hence the output array ends holding the whole product, as the host's one `dot_general` computes it. The two
  changes of float format in the body are the identity on the extended reals.
-/
import proofs.«180533_j54262616818367_2_alg».proof.Proof.Gen.KernelIdeal.Frame
import proofs.«180533_j54262616818367_2_alg».proof.Proof.LibRowBlockDot
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The product of the two whole operand arrays as the region finds them: x · W1, 100000 × 16. -/
def product (c : Dev nD) : FVec Ideal S100000x16 .f32 :=
  Host.dotGeneral (φ₁ := .f32) (φ₂ := .f32) (DotDims.plain 100000 512 16) none (V c main_arg0 : FVec Ideal S100000x512 .f32) (V c main_arg1 : FVec Ideal S512x16 .f32)

/-- The body's arithmetic on a block of rows: entry `j` of the block product is entry `i` of the whole product when
    `i` is `j` moved down by the block's first row `r0`. -/
theorem payload_at (x0 : Vec Ideal S5000x512 .f32) (x1 : Vec Ideal S512x16 .f32)
    (X : FVec Ideal S100000x512 .f32) (W : FVec Ideal S512x16 .f32) (r0 : Nat) (hr : r0 + 5000 ≤ 100000)
    (h0 : ∀ (a : Fin 5000) (k : Fin 512), x0 (ix2 a k) = X (ix2 ⟨r0 + a.val, by omega⟩ k))
    (h1 : ∀ (k : Fin 512) (b : Fin 16), x1 (ix2 k b) = W (ix2 k b))
    (j : S5000x16.Idx) (i : S100000x16.Idx) (hi0 : (i 0).val = r0 + (j 0).val) (hi1 : (i 1).val = (j 1).val) :
    k0_pay1 x0 x1 j = Host.dotGeneral (φ₁ := .f32) (φ₂ := .f32) (DotDims.plain 100000 512 16) none X W i := by
  unfold k0_pay1
  exact LibRowBlockDot.matmul_rowBlock_apply_idx none none X W (truncf .bf16 x0 bitsLt_bf16_f32) (truncf .bf16 x1 bitsLt_bf16_f32)
    (fun a => ⟨r0 + a.val, by omega⟩) h0 h1 j i hi0 hi1

/-- The printed index maps, decided over the grid: the left operand's row block moves with the output's, the right
    operand stays, and there is one block along the columns. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block of the output is some point's. -/
theorem idx_onto : ∀ q : Fin 20, ∃ t : Fin cfg0.N, win0_2.index t = ![q.val, 0] :=
  (by decide +kernel : ∀ q : Fin 20, ∃ t : Fin grid0.N, win0_2.index t = ![q.val, 0])

/-- What point `t` writes back is its block of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S5000x512) origin, View.ld_unit_zero (S := S512x16) origin]
  obtain ⟨e0, e1, e2, e3, e4, e5⟩ := idx_facts t
  funext j
  show k0_pay1 (iblk0 V c 0 t) (iblk0 V c 1 t) j
    = Host.dotGeneral (φ₁ := .f32) (φ₂ := .f32) (DotDims.plain 100000 512 16) none (V c main_arg0 : FVec Ideal S100000x512 .f32) (V c main_arg1 : FVec Ideal S512x16 .f32) (((cfg0.win 2).blk t).view.emb j)
  refine payload_at (iblk0 V c 0 t) (iblk0 V c 1 t) (V c main_arg0 : FVec Ideal S100000x512 .f32) (V c main_arg1 : FVec Ideal S512x16 .f32) (win0_2.index t (0 : Fin 2) * 5000) (by omega) ?_ ?_ j _ ?_ ?_
  · intro a k
    show V c main_arg0 (((cfg0.win 0).blk t).view.emb (ix2 a k)) = V c main_arg0 _
    refine congrArg _ (funext fun ax => Fin.ext ?_)
    match ax with
    | ⟨0, _⟩ => show win0_0.index t (0 : Fin 2) * 5000 + 1 * a.val = win0_2.index t (0 : Fin 2) * 5000 + a.val; omega
    | ⟨1, _⟩ => show win0_0.index t (1 : Fin 2) * 512 + 1 * k.val = k.val; omega
  · intro k b
    show V c main_arg1 (((cfg0.win 1).blk t).view.emb (ix2 k b)) = V c main_arg1 _
    refine congrArg _ (funext fun ax => Fin.ext ?_)
    match ax with
    | ⟨0, _⟩ => show win0_1.index t (0 : Fin 2) * 512 + 1 * k.val = k.val; omega
    | ⟨1, _⟩ => show win0_1.index t (1 : Fin 2) * 16 + 1 * b.val = b.val; omega
  · show win0_2.index t (0 : Fin 2) * 5000 + 1 * (j 0).val = win0_2.index t (0 : Fin 2) * 5000 + (j 0).val; omega
  · show win0_2.index t (1 : Fin 2) * 16 + 1 * (j 1).val = (j 1).val; omega

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- The row blocks tile the output: row r is in the block of the point whose block index is r / 5000. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The output array after the region's last write-back is the product of the whole operand arrays. -/
theorem final (c : Dev nD) : (dat0 V c).arrAt 2 cfg0.N = product V c :=
  (dat0 V c).arrAt_eq_of_cover 2 (product V c) (fun t _ => flushed_eq V c t) (cover)

end Cert.KernelIdeal.Region0

end
-- ==== Proof.Region1.lean ====
/-
  The second matrix-product region: what it leaves in its output array.

  As in the first region the grid has 20 points; point t fetches rows 5000·t … 5000·t + 4999 of the left operand
  (now 16 columns: the hidden layer) and the whole right operand (16 × 7), multiplies them into a zero accumulator and
  writes the 5000 × 7 product back to the same rows of the output. The body first casts the loaded block to its own
  shape, which changes nothing. A row of a product depends on the same row of the left factor alone, the 20 row blocks
  tile the 100000 rows, so the output array ends holding the product of the whole arrays.
-/
import proofs.«180533_j54262616818367_2_alg».proof.Proof.Gen.KernelIdeal.Frame
import proofs.«180533_j54262616818367_2_alg».proof.Proof.LibRowBlockDot
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The product of the two whole operand arrays as the region finds them: h · W2, 100000 × 7. -/
def product (c : Dev nD) : FVec Ideal S100000x7 .f32 :=
  Host.dotGeneral (φ₁ := .f32) (φ₂ := .f32) (DotDims.plain 100000 16 7) none (V c main_v47 : FVec Ideal S100000x16 .f32) (V c main_arg3 : FVec Ideal S16x7 .f32)

/-- The body's arithmetic on a block of rows: entry `j` of the block product is entry `i` of the whole product when
    `i` is `j` moved down by the block's first row `r0`. -/
theorem payload_at (x0 : Vec Ideal S5000x16 .f32) (x1 : Vec Ideal S16x7 .f32)
    (X : FVec Ideal S100000x16 .f32) (W : FVec Ideal S16x7 .f32) (r0 : Nat) (hr : r0 + 5000 ≤ 100000)
    (h0 : ∀ (a : Fin 5000) (k : Fin 16), x0 (ix2 a k) = X (ix2 ⟨r0 + a.val, by omega⟩ k))
    (h1 : ∀ (k : Fin 16) (b : Fin 7), x1 (ix2 k b) = W (ix2 k b))
    (j : S5000x7.Idx) (i : S100000x7.Idx) (hi0 : (i 0).val = r0 + (j 0).val) (hi1 : (i 1).val = (j 1).val) :
    k1_pay1 x0 x1 j = Host.dotGeneral (φ₁ := .f32) (φ₂ := .f32) (DotDims.plain 100000 16 7) none X W i := by
  unfold k1_pay1
  rw [shapeCast_self]
  exact LibRowBlockDot.matmul_rowBlock_apply_idx none none X W (truncf .bf16 x0 bitsLt_bf16_f32) (truncf .bf16 x1 bitsLt_bf16_f32)
    (fun a => ⟨r0 + a.val, by omega⟩) h0 h1 j i hi0 hi1

/-- The printed index maps, decided over the grid: the left operand's row block moves with the output's, the right
    operand stays, and there is one block along the columns. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every row block of the output is some point's. -/
theorem idx_onto : ∀ q : Fin 20, ∃ t : Fin cfg1.N, win1_2.index t = ![q.val, 0] :=
  (by decide +kernel : ∀ q : Fin 20, ∃ t : Fin grid1.N, win1_2.index t = ![q.val, 0])

/-- What point `t` writes back is its block of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero origin]
  simp only [View.ld_unit_zero (S := S5000x16) origin, View.ld_unit_zero (S := S16x7) origin]
  obtain ⟨e0, e1, e2, e3, e4, e5⟩ := idx_facts t
  funext j
  show k1_pay1 (iblk1 V c 0 t) (iblk1 V c 1 t) j
    = Host.dotGeneral (φ₁ := .f32) (φ₂ := .f32) (DotDims.plain 100000 16 7) none (V c main_v47 : FVec Ideal S100000x16 .f32) (V c main_arg3 : FVec Ideal S16x7 .f32) (((cfg1.win 2).blk t).view.emb j)
  refine payload_at (iblk1 V c 0 t) (iblk1 V c 1 t) (V c main_v47 : FVec Ideal S100000x16 .f32) (V c main_arg3 : FVec Ideal S16x7 .f32) (win1_2.index t (0 : Fin 2) * 5000) (by omega) ?_ ?_ j _ ?_ ?_
  · intro a k
    show V c main_v47 (((cfg1.win 0).blk t).view.emb (ix2 a k)) = V c main_v47 _
    refine congrArg _ (funext fun ax => Fin.ext ?_)
    match ax with
    | ⟨0, _⟩ => show win1_0.index t (0 : Fin 2) * 5000 + 1 * a.val = win1_2.index t (0 : Fin 2) * 5000 + a.val; omega
    | ⟨1, _⟩ => show win1_0.index t (1 : Fin 2) * 16 + 1 * k.val = k.val; omega
  · intro k b
    show V c main_arg3 (((cfg1.win 1).blk t).view.emb (ix2 k b)) = V c main_arg3 _
    refine congrArg _ (funext fun ax => Fin.ext ?_)
    match ax with
    | ⟨0, _⟩ => show win1_1.index t (0 : Fin 2) * 16 + 1 * k.val = k.val; omega
    | ⟨1, _⟩ => show win1_1.index t (1 : Fin 2) * 7 + 1 * b.val = b.val; omega
  · show win1_2.index t (0 : Fin 2) * 5000 + 1 * (j 0).val = win1_2.index t (0 : Fin 2) * 5000 + (j 0).val; omega
  · show win1_2.index t (1 : Fin 2) * 7 + 1 * (j 1).val = (j 1).val; omega

/-- An index of the output array is in point `t`'s block iff each coordinate is in the block's range on its axis. -/
theorem mem_blk (t : Fin cfg1.N) (i : S100000x7.Idx) :
    i ∈ ((cfg1.win 2).blk t).view.set ↔ ∀ a : Fin 2, win1_2.index t a * S5000x7.size a ≤ (i a).val ∧ (i a).val < win1_2.index t a * S5000x7.size a + S5000x7.size a := by
  show i ∈ ((View.whole main_v48).slice (win1_2.rect t)).set ↔ _
  rw [View.set_slice_whole, Rect.mem_set_unit]
  exact Iff.rfl

/-- The row blocks tile the output: row r is in the block of the point whose block index is r / 5000. -/
theorem cover (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 7 ≤ (i 1).val ∧ (i 1).val < win1_2.index t (1 : Fin 2) * 7 + 7; omega

/-- The output array after the region's last write-back is the product of the whole operand arrays. -/
theorem final (c : Dev nD) : (dat1 V c).arrAt 2 cfg1.N = product V c :=
  (dat1 V c).arrAt_eq_of_cover 2 (product V c) (fun t _ => flushed_eq V c t) (cover)

end Cert.KernelIdeal.Region1

end
-- ==== Proof.Spec.lean ====
/-
  The two-layer graph convolution as pure functions of the argument arrays.

  Both programs compute, from node features x [100000, 512], weights W1 [512, 16], W2 [16, 7], biases b1, b2 and an
  edge list e [2, 3200000]:
    row  = e[0] ++ (0 … 99999)          sources, a self loop appended for every node
    col  = e[1] ++ (0 … 99999)          targets
    deg  = Σ over edges of 1 at col      (scatter-add of ones)
    dinv = deg > 0 ? rsqrt(deg) : 0
    norm = dinv[row] · dinv[col]         one coefficient per edge
    conv(t, b) = (Σ over edges of t[row] · norm at col) + b
    h = max(conv(x · W1, b1), 0),   z = conv(h · W2, b2).
  A negative index is wrapped by adding the extent before a gather (jnp's indexing); a scatter takes the targets as
  they are. The two programs differ only in HOW the two matrix products are computed, so everything around a product
  is stated here ONCE, with the product as an argument: `hidden` and `logits`. The names below follow the
  operations as both programs print them, in their order.
-/
import proofs.«180533_j54262616818367_2_alg».proof.KernelIdeal

noncomputable section

namespace Cert.KernelIdeal.Spec

open Cert.KernelIdeal Cert.KernelIdeal.Facts₀ Cert.KernelIdeal.Facts
open Idealize.ShloMosaic

variable {F : FTy → Type} [FloatOps F] [Facts]

/-- Row `r` of the edge list followed by the self loops 0 … 99999: 3300000 node numbers. -/
def rowOf (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

def colOf (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- Node numbers made ready for a gather: a negative one has the extent 100000 added; then one index per row. -/
def wrapped (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- The in-degree of every node, self loop included: ones scatter-added at the targets. -/
def degree (e : IVec S2x3200000 32) : FVec F S100000 .f32 :=
  Host.scatterAdd scatter_S100000_S3300000x1_S3300000_n_0_0_1
    (broadcastInDim S100000 ![] bcast_S_S100000 (constant (F := F) S_ .f32 0x00000000#32))
    (broadcastInDim S3300000x1 ![0] bcast_S3300000_S3300000x1_0 (colOf e))
    (broadcastInDim S3300000 ![] bcast_S_S3300000 (constant (F := F) S_ .f32 0x3F800000#32))

/-- deg > 0 ? rsqrt(deg) : 0. -/
def invSqrtDegree (e : IVec S2x3200000 32) : FVec F S100000 .f32 :=
  select (cmpf .ogt (degree (F := F) e) (broadcastInDim S100000 ![] bcast_S_S100000 (constant (F := F) S_ .f32 0x00000000#32)))
    (Host.rsqrt (degree (F := F) e))
    (broadcastInDim S100000 ![] bcast_S_S100000 (id (constant (F := F) S_ .f32 0x00000000#32)))

/-- The coefficient of every edge: dinv at its source times dinv at its target. -/
def edgeNorm (e : IVec S2x3200000 32) : FVec F S3300000 .f32 :=
  mulf (Host.gather gather_S100000_S3300000x1_S3300000_n_0_n_n_0_1_1 (invSqrtDegree (F := F) e) (wrapped (rowOf e)))
    (Host.gather gather_S100000_S3300000x1_S3300000_n_0_n_n_0_1_1 (invSqrtDegree (F := F) e) (wrapped (colOf e)))

/-- The first layer around its product `t` = x · W1: messages t[row] · norm summed at the targets, plus the bias,
    then the rectifier. -/
def hidden (t : FVec F S100000x16 .f32) (b : FVec F S16 .f32) (e : IVec S2x3200000 32) : FVec F S100000x16 .f32 :=
  maximumf
    (addf
      (Host.scatterAdd scatter_S100000x16_S3300000x1_S3300000x16_1_0_0_1
        (broadcastInDim S100000x16 ![] bcast_S_S100000x16 (constant (F := F) S_ .f32 0x00000000#32))
        (broadcastInDim S3300000x1 ![0] bcast_S3300000_S3300000x1_0 (colOf e))
        (mulf (Host.gather gather_S100000x16_S3300000x1_S3300000x16_1_0_n_n_0_1_116 t (wrapped (rowOf e)))
          (broadcastInDim S3300000x16 ![0, 1] bcast_S3300000x1_S3300000x16_0_1
            (broadcastInDim S3300000x1 ![0] bcast_S3300000_S3300000x1_0 (edgeNorm (F := F) e)))))
      (broadcastInDim S100000x16 ![0, 1] bcast_S1x16_S100000x16_0_1 (broadcastInDim S1x16 ![1] bcast_S16_S1x16_1 b)))
    (broadcastInDim S100000x16 ![] bcast_S_S100000x16 (constant (F := F) S_ .f32 0x00000000#32))

/-- The second layer around its product `t` = h · W2: the same aggregation and bias, no rectifier. -/
def logits (t : FVec F S100000x7 .f32) (b : FVec F S7 .f32) (e : IVec S2x3200000 32) : FVec F S100000x7 .f32 :=
  addf
    (Host.scatterAdd scatter_S100000x7_S3300000x1_S3300000x7_1_0_0_1
      (broadcastInDim S100000x7 ![] bcast_S_S100000x7 (constant (F := F) S_ .f32 0x00000000#32))
      (broadcastInDim S3300000x1 ![0] bcast_S3300000_S3300000x1_0 (colOf e))
      (mulf (Host.gather gather_S100000x7_S3300000x1_S3300000x7_1_0_n_n_0_1_17 t (wrapped (rowOf e)))
        (broadcastInDim S3300000x7 ![0, 1] bcast_S3300000x1_S3300000x7_0_1
          (broadcastInDim S3300000x1 ![0] bcast_S3300000_S3300000x1_0 (edgeNorm (F := F) e)))))
    (broadcastInDim S100000x7 ![0, 1] bcast_S1x7_S100000x7_0_1 (broadcastInDim S1x7 ![1] bcast_S7_S1x7_1 b))

/-- The first result, h [100000, 16]. -/
def result0 (x : FVec F S100000x512 .f32) (w1 : FVec F S512x16 .f32) (b1 : FVec F S16 .f32) (e : IVec S2x3200000 32) :
    FVec F S100000x16 .f32 :=
  hidden (Host.dotGeneral (DotDims.plain 100000 512 16) none x w1) b1 e

/-- The second result, z [100000, 7]. -/
def result1 (x : FVec F S100000x512 .f32) (w1 : FVec F S512x16 .f32) (b1 : FVec F S16 .f32) (w2 : FVec F S16x7 .f32)
    (b2 : FVec F S7 .f32) (e : IVec S2x3200000 32) : FVec F S100000x7 .f32 :=
  logits (Host.dotGeneral (DotDims.plain 100000 16 7) none (result0 x w1 b1 e) w2) b2 e

end Cert.KernelIdeal.Spec

end
-- ==== Proof.KernelValue.lean ====
/-
  The kernel program's two results as functions of its arguments.

  The buffer contents at the last boundary of @main are a fold through the program: host stretch, host stretch, host
  stretch, first product region, two host stretches, second product region, last host stretch. Reading the fold at
  a result buffer walks @main backwards. A host operation's result is its function of its operands' contents; a
  buffer no operation of a stretch writes is what it was before the stretch; a region changes its output array only,
  to the product of its two operand arrays as it found them (Region0.lean, Region1.lean). What comes out is the
  two-layer graph convolution of Spec.lean at the products of the whole arrays, the same two functions of the six
  arguments that the reference's straight line computes. Everything about the host stretches holds for any float
  values; only the two regions' products are read at the extended reals.
-/
import proofs.«180533_j54262616818367_2_alg».proof.Proof.Gen.KernelIdeal.Frame
import proofs.«180533_j54262616818367_2_alg».proof.Proof.Region0
import proofs.«180533_j54262616818367_2_alg».proof.Proof.Region1
import proofs.«180533_j54262616818367_2_alg».proof.Proof.Spec
import Idealize.ShloMosaic.Lib.StableHlo.Run

set_option maxRecDepth 16384

noncomputable section

namespace Cert.KernelIdeal.Final

open Cert.KernelIdeal Cert.KernelIdeal.Gen
open Idealize.ShloMosaic Idealize.ShloMosaic.TcCoe Idealize.SL.Sem Idealize.ShloMosaic.StableHlo
open Cert.KernelIdeal.Spec

section AnyFloats

variable {F : FTy → Type} [FloatOps F]
variable (m : (ℓ : Loc nD τ sig) → Buf (Elt F) ℓ) (ρ : Dev nD → PrngReg) (c : Dev nD)

/-! ## Before the first region: the edge data and the arguments -/

theorem entry0_row : W3 m ρ c (Proc.devRef .tc main_v3) = rowOf (m ((c : Thread nD τ).loc main_arg5)) := by
  show after hostOps0_2 (after hostOps0_1 (after hostOps0 (W0 m ρ c))) (Proc.devRef .tc main_v3) = _
  dsimp only [hostOps0, hostOps0_1, hostOps0_2]
  after_results_simp <;> rfl

theorem entry0_col : W3 m ρ c (Proc.devRef .tc main_v6) = colOf (m ((c : Thread nD τ).loc main_arg5)) := by
  show after hostOps0_2 (after hostOps0_1 (after hostOps0 (W0 m ρ c))) (Proc.devRef .tc main_v6) = _
  dsimp only [hostOps0, hostOps0_1, hostOps0_2]
  after_results_simp <;> rfl

theorem entry0_norm : W3 m ρ c (Proc.devRef .tc main_v29) = edgeNorm (F := F) (m ((c : Thread nD τ).loc main_arg5)) := by
  show after hostOps0_2 (after hostOps0_1 (after hostOps0 (W0 m ρ c))) (Proc.devRef .tc main_v29) = _
  dsimp only [hostOps0, hostOps0_1, hostOps0_2]
  after_results_simp <;> rfl

theorem entry0_arg0 : W3 m ρ c (Proc.devRef .tc main_arg0) = m ((c : Thread nD τ).loc main_arg0) := by
  show after hostOps0_2 (after hostOps0_1 (after hostOps0 (W0 m ρ c))) (Proc.devRef .tc main_arg0) = _
  dsimp only [hostOps0, hostOps0_1, hostOps0_2]
  after_results_simp <;> rfl
theorem entry0_arg1 : W3 m ρ c (Proc.devRef .tc main_arg1) = m ((c : Thread nD τ).loc main_arg1) := by
  show after hostOps0_2 (after hostOps0_1 (after hostOps0 (W0 m ρ c))) (Proc.devRef .tc main_arg1) = _
  dsimp only [hostOps0, hostOps0_1, hostOps0_2]
  after_results_simp <;> rfl
theorem entry0_arg2 : W3 m ρ c (Proc.devRef .tc main_arg2) = m ((c : Thread nD τ).loc main_arg2) := by
  show after hostOps0_2 (after hostOps0_1 (after hostOps0 (W0 m ρ c))) (Proc.devRef .tc main_arg2) = _
  dsimp only [hostOps0, hostOps0_1, hostOps0_2]
  after_results_simp <;> rfl
theorem entry0_arg3 : W3 m ρ c (Proc.devRef .tc main_arg3) = m ((c : Thread nD τ).loc main_arg3) := by
  show after hostOps0_2 (after hostOps0_1 (after hostOps0 (W0 m ρ c))) (Proc.devRef .tc main_arg3) = _
  dsimp only [hostOps0, hostOps0_1, hostOps0_2]
  after_results_simp <;> rfl
theorem entry0_arg4 : W3 m ρ c (Proc.devRef .tc main_arg4) = m ((c : Thread nD τ).loc main_arg4) := by
  show after hostOps0_2 (after hostOps0_1 (after hostOps0 (W0 m ρ c))) (Proc.devRef .tc main_arg4) = _
  dsimp only [hostOps0, hostOps0_1, hostOps0_2]
  after_results_simp <;> rfl

/-! ## After the first region: everything but its output array is as before -/

theorem exit0_row : W4 m ρ c (Proc.devRef .tc main_v3) = rowOf (m ((c : Thread nD τ).loc main_arg5)) :=
  (W4_of_ne m ρ c main_v3 (by decide)).trans (entry0_row m ρ c)
theorem exit0_col : W4 m ρ c (Proc.devRef .tc main_v6) = colOf (m ((c : Thread nD τ).loc main_arg5)) :=
  (W4_of_ne m ρ c main_v6 (by decide)).trans (entry0_col m ρ c)
theorem exit0_norm : W4 m ρ c (Proc.devRef .tc main_v29) = edgeNorm (F := F) (m ((c : Thread nD τ).loc main_arg5)) :=
  (W4_of_ne m ρ c main_v29 (by decide)).trans (entry0_norm m ρ c)
theorem exit0_arg2 : W4 m ρ c (Proc.devRef .tc main_arg2) = m ((c : Thread nD τ).loc main_arg2) :=
  (W4_of_ne m ρ c main_arg2 (by decide)).trans (entry0_arg2 m ρ c)
theorem exit0_arg3 : W4 m ρ c (Proc.devRef .tc main_arg3) = m ((c : Thread nD τ).loc main_arg3) :=
  (W4_of_ne m ρ c main_arg3 (by decide)).trans (entry0_arg3 m ρ c)
theorem exit0_arg4 : W4 m ρ c (Proc.devRef .tc main_arg4) = m ((c : Thread nD τ).loc main_arg4) :=
  (W4_of_ne m ρ c main_arg4 (by decide)).trans (entry0_arg4 m ρ c)

/-! ## Before the second region: the hidden layer, around whatever the first region left -/

/-- If the first region left `t` in its output array, the second region finds the hidden layer `hidden t b1 e`. -/
theorem entry1_hidden_of (t : FVec F S100000x16 .f32) (ht : W4 m ρ c (Proc.devRef .tc main_v30) = t) :
    W6 m ρ c (Proc.devRef .tc main_v47) = hidden t (m ((c : Thread nD τ).loc main_arg2)) (m ((c : Thread nD τ).loc main_arg5)) := by
  show after hostOps1_1 (after hostOps1 (W4 m ρ c)) (Proc.devRef .tc main_v47) = _
  dsimp only [hostOps1, hostOps1_1]
  after_results_simp
  rw [ht, exit0_row, exit0_col, exit0_norm, exit0_arg2]
  rfl

theorem entry1_row : W6 m ρ c (Proc.devRef .tc main_v3) = rowOf (m ((c : Thread nD τ).loc main_arg5)) := by
  refine Eq.trans ?_ (exit0_row m ρ c)
  show after hostOps1_1 (after hostOps1 (W4 m ρ c)) (Proc.devRef .tc main_v3) = _
  dsimp only [hostOps1, hostOps1_1]
  after_results_simp
theorem entry1_col : W6 m ρ c (Proc.devRef .tc main_v6) = colOf (m ((c : Thread nD τ).loc main_arg5)) := by
  refine Eq.trans ?_ (exit0_col m ρ c)
  show after hostOps1_1 (after hostOps1 (W4 m ρ c)) (Proc.devRef .tc main_v6) = _
  dsimp only [hostOps1, hostOps1_1]
  after_results_simp
theorem entry1_norm : W6 m ρ c (Proc.devRef .tc main_v29) = edgeNorm (F := F) (m ((c : Thread nD τ).loc main_arg5)) := by
  refine Eq.trans ?_ (exit0_norm m ρ c)
  show after hostOps1_1 (after hostOps1 (W4 m ρ c)) (Proc.devRef .tc main_v29) = _
  dsimp only [hostOps1, hostOps1_1]
  after_results_simp
theorem entry1_arg3 : W6 m ρ c (Proc.devRef .tc main_arg3) = m ((c : Thread nD τ).loc main_arg3) := by
  refine Eq.trans ?_ (exit0_arg3 m ρ c)
  show after hostOps1_1 (after hostOps1 (W4 m ρ c)) (Proc.devRef .tc main_arg3) = _
  dsimp only [hostOps1, hostOps1_1]
  after_results_simp
theorem entry1_arg4 : W6 m ρ c (Proc.devRef .tc main_arg4) = m ((c : Thread nD τ).loc main_arg4) := by
  refine Eq.trans ?_ (exit0_arg4 m ρ c)
  show after hostOps1_1 (after hostOps1 (W4 m ρ c)) (Proc.devRef .tc main_arg4) = _
  dsimp only [hostOps1, hostOps1_1]
  after_results_simp

/-! ## After the second region -/

/-- The second region reads the hidden layer and leaves it as it was. -/
theorem exit1_hidden : W7 m ρ c (Proc.devRef .tc main_v47) = W6 m ρ c (Proc.devRef .tc main_v47) :=
  (W7_arr m ρ c 0).trans (((dat1 (V6 m ρ) c).arrAt_in 0 rfl _).trans (A_eq1 (V6 m ρ) c 0))

theorem exit1_row : W7 m ρ c (Proc.devRef .tc main_v3) = rowOf (m ((c : Thread nD τ).loc main_arg5)) :=
  (W7_of_ne m ρ c main_v3 (by decide)).trans (entry1_row m ρ c)
theorem exit1_col : W7 m ρ c (Proc.devRef .tc main_v6) = colOf (m ((c : Thread nD τ).loc main_arg5)) :=
  (W7_of_ne m ρ c main_v6 (by decide)).trans (entry1_col m ρ c)
theorem exit1_norm : W7 m ρ c (Proc.devRef .tc main_v29) = edgeNorm (F := F) (m ((c : Thread nD τ).loc main_arg5)) :=
  (W7_of_ne m ρ c main_v29 (by decide)).trans (entry1_norm m ρ c)
theorem exit1_arg4 : W7 m ρ c (Proc.devRef .tc main_arg4) = m ((c : Thread nD τ).loc main_arg4) :=
  (W7_of_ne m ρ c main_arg4 (by decide)).trans (entry1_arg4 m ρ c)

/-! ## The last boundary -/

/-- The last stretch does not write the hidden layer. -/
theorem last_hidden : W8 m ρ c (Proc.devRef .tc main_v47) = W6 m ρ c (Proc.devRef .tc main_v47) := by
  refine Eq.trans ?_ (exit1_hidden m ρ c)
  show after hostOps2 (W7 m ρ c) (Proc.devRef .tc main_v47) = _
  dsimp only [hostOps2]
  after_results_simp

/-- If the second region left `t` in its output array, the second result is `logits t b2 e`. -/
theorem last_logits_of (t : FVec F S100000x7 .f32) (ht : W7 m ρ c (Proc.devRef .tc main_v48) = t) :
    W8 m ρ c (Proc.devRef .tc main_v64) = logits t (m ((c : Thread nD τ).loc main_arg4)) (m ((c : Thread nD τ).loc main_arg5)) := by
  show after hostOps2 (W7 m ρ c) (Proc.devRef .tc main_v64) = _
  dsimp only [hostOps2]
  after_results_simp
  rw [ht, exit1_row, exit1_col, exit1_norm, exit1_arg4]
  rfl

end AnyFloats

/-! ## At the extended reals: the two regions' products, and the two results -/

section AtIdeal

variable (m : (ℓ : Loc nD τ sig) → Buf (Elt Ideal) ℓ) (ρ : Dev nD → PrngReg) (c : Dev nD)

/-- The first region's output array: x · W1 of the launch contents. -/
theorem exit0_product : W4 m ρ c (Proc.devRef .tc main_v30)
    = Host.dotGeneral (F := Ideal) (φ₁ := .f32) (φ₂ := .f32) (DotDims.plain 100000 512 16) none (m ((c : Thread nD τ).loc main_arg0)) (m ((c : Thread nD τ).loc main_arg1)) := by
  refine (W4_arr m ρ c 2).trans ((Region0.final (V3 m ρ) c).trans ?_)
  unfold Region0.product
  rw [show V3 m ρ c main_arg0 = W3 m ρ c (Proc.devRef .tc main_arg0) from rfl,
    show V3 m ρ c main_arg1 = W3 m ρ c (Proc.devRef .tc main_arg1) from rfl, entry0_arg0, entry0_arg1]

/-- The hidden layer as the second region finds it is the first result. -/
theorem entry1_hidden : W6 m ρ c (Proc.devRef .tc main_v47)
    = result0 (F := Ideal) (m ((c : Thread nD τ).loc main_arg0)) (m ((c : Thread nD τ).loc main_arg1)) (m ((c : Thread nD τ).loc main_arg2)) (m ((c : Thread nD τ).loc main_arg5)) :=
  entry1_hidden_of m ρ c _ (exit0_product m ρ c)

/-- The second region's output array: h · W2. -/
theorem exit1_product : W7 m ρ c (Proc.devRef .tc main_v48)
    = Host.dotGeneral (F := Ideal) (φ₁ := .f32) (φ₂ := .f32) (DotDims.plain 100000 16 7) none
        (result0 (F := Ideal) (m ((c : Thread nD τ).loc main_arg0)) (m ((c : Thread nD τ).loc main_arg1)) (m ((c : Thread nD τ).loc main_arg2)) (m ((c : Thread nD τ).loc main_arg5))) (m ((c : Thread nD τ).loc main_arg3)) := by
  refine (W7_arr m ρ c 2).trans ((Region1.final (V6 m ρ) c).trans ?_)
  unfold Region1.product
  rw [show V6 m ρ c main_v47 = W6 m ρ c (Proc.devRef .tc main_v47) from rfl,
    show V6 m ρ c main_arg3 = W6 m ρ c (Proc.devRef .tc main_arg3) from rfl, entry1_hidden, entry1_arg3]

/-- The first result buffer ends at h. -/
theorem last_result0 : W8 m ρ c (Proc.devRef .tc main_v47)
    = result0 (F := Ideal) (m ((c : Thread nD τ).loc main_arg0)) (m ((c : Thread nD τ).loc main_arg1)) (m ((c : Thread nD τ).loc main_arg2)) (m ((c : Thread nD τ).loc main_arg5)) :=
  (last_hidden m ρ c).trans (entry1_hidden m ρ c)

/-- The second result buffer ends at z. -/
theorem last_result1 : W8 m ρ c (Proc.devRef .tc main_v64)
    = result1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  last_logits_of m ρ c _ (exit1_product m ρ c)

end AtIdeal

end Cert.KernelIdeal.Final

end
-- ==== Proof.RefRun.lean ====
/-
  The reference program's run, read back.

  The reference's @main is a straight line of 83 host operations (its two outlined calls, the select of
  `jnp.where` and the rectifier, listed in place). Every weakly fair execution of such a line terminates with each
  buffer at the fold of the operations' results over the launch memory. Read at the two result buffers, that fold is
  the two-layer graph convolution of Spec.lean with each layer's product computed by the host's `dot_general` of
  the whole arrays: `result0` and `result1` of the six arguments. The arguments are written by no operation.
-/
import proofs.«180533_j54262616818367_2_alg».proof.Proof.Gen.ReferenceIdeal
import proofs.«180533_j54262616818367_2_alg».proof.Proof.Spec
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ nullary main_v0 (iotaInDim S100000 32 0),
    unary main_arg5 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg5 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (.of main_cst_2 : TRef sig ⟨S_, .f32⟩) (.of main_call0_v0 : TRef sig ⟨S_, .f32⟩) id,
    TRef.unary (.of main_call0_v0 : TRef sig ⟨S_, .f32⟩) (.of main_call0_v1 : TRef sig ⟨S100000, .f32⟩) (broadcastInDim S100000 ![] bcast_S_S100000),
    TRef.ternary (.of main_v12 : TRef sig ⟨S100000, .i1⟩) (.of main_v13 : TRef sig ⟨S100000, .f32⟩) (.of main_call0_v1 : TRef sig ⟨S100000, .f32⟩) (.of main_v14 : TRef sig ⟨S100000, .f32⟩) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg1 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg2 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (.of main_call1_cst : TRef sig ⟨S_, .f32⟩) (constant S_ .f32 0x00000000#32),
    TRef.unary (.of main_call1_cst : TRef sig ⟨S_, .f32⟩) (.of main_call1_v0 : TRef sig ⟨S100000x16, .f32⟩) (broadcastInDim S100000x16 ![] bcast_S_S100000x16),
    TRef.binary (.of main_v46 : TRef sig ⟨S100000x16, .f32⟩) (.of main_call1_v0 : TRef sig ⟨S100000x16, .f32⟩) (.of main_v47 : TRef sig ⟨S100000x16, .f32⟩) maximumf,
    binary main_v47 main_arg3 main_v48 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x7 ![0, 1] bcast_S3300000x1_S3300000x7_0_1 : (⟨S3300000x1, .f32⟩ : BufTy).Contents (Elt F) → (⟨S3300000x7, .f32⟩ : BufTy).Contents (Elt F)),
    binary main_v55 main_v57 main_v58 (mulf : (⟨S3300000x7, .f32⟩ : BufTy).Contents (Elt F) → (⟨S3300000x7, .f32⟩ : BufTy).Contents (Elt F) → (⟨S3300000x7, .f32⟩ : BufTy).Contents (Elt F)),
    nullary main_cst_11 (constant S_ .f32 0x00000000#32),
    unary main_cst_11 main_v59 (broadcastInDim S100000x7 ![] bcast_S_S100000x7 : (⟨S_, .f32⟩ : BufTy).Contents (Elt F) → (⟨S100000x7, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)),
    unary main_arg4 main_v62 (broadcastInDim S1x7 ![1] bcast_S7_S1x7_1 : (⟨S7, .f32⟩ : BufTy).Contents (Elt F) → (⟨S1x7, .f32⟩ : BufTy).Contents (Elt F)),
    unary main_v62 main_v63 (broadcastInDim S100000x7 ![0, 1] bcast_S1x7_S100000x7_0_1 : (⟨S1x7, .f32⟩ : BufTy).Contents (Elt F) → (⟨S100000x7, .f32⟩ : BufTy).Contents (Elt F)),
    binary main_v61 main_v63 main_v64 (addf : (⟨S100000x7, .f32⟩ : BufTy).Contents (Elt F) → (⟨S100000x7, .f32⟩ : BufTy).Contents (Elt F) → (⟨S100000x7, .f32⟩ : BufTy).Contents (Elt F)) ]

set_option maxRecDepth 8192 in
set_option maxHeartbeats 4000000 in
/-- @main is that line, run in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

variable [Cert.KernelIdeal.Facts]

set_option maxRecDepth 8192 in
set_option maxHeartbeats 40000000 in
/-- From any memory with zero counters every weakly fair execution of the reference terminates with its two results
    at the specification's functions of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
        = Cert.KernelIdeal.Spec.result0 (F := F) (m ((c.tc : Thread nD τ).loc main_arg0)) (m ((c.tc : Thread nD τ).loc main_arg1))
            (m ((c.tc : Thread nD τ).loc main_arg2)) (m ((c.tc : Thread nD τ).loc main_arg5))
      ∧ r.2.mem ((c.tc : Thread nD τ).loc main_v64)
        = Cert.KernelIdeal.Spec.result1 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v47).trans (by after_results_simp <;> rfl),
      (h c main_v64).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Line

end
-- ==== Proof.lean ====
/-
  The certificate's proof: the kernel program (two matrix products computed by TPU kernels inside a host graph convolution) against its
  jnp reference (the same graph convolution with the host's two `dot_general`s), over the extended reals.

  The two programs share every host operation; they differ in how x · W1 and h · W2 are computed. The kernel computes
  each product in 20 row blocks of 5000 rows, each block's product accumulated into zero from operands passed through
  a change of float format; on the extended reals the format change is the identity, adding to zero adds nothing, and
  a row of a product depends on the same row of the left factor alone, so the blocks together are the product of the
  whole arrays (Region0.lean, Region1.lean over LibRowBlockDot.lean). Hence both programs end with their two results
  at the same two functions of the six arguments (Spec.lean): the kernel by reading its last buffer contents back
  through @main (KernelRun.lean, KernelValue.lean), the reference by reading its straight line (RefRun.lean). No law
  of real arithmetic beyond 0 + x = x is used, so the precondition (finite inputs) is never opened.
  The idealization rewrote no operation, so `preserves` has nothing to state.
-/
import proofs.«180533_j54262616818367_2_alg».proof.Defs
import proofs.«180533_j54262616818367_2_alg».proof.Proof.Gen.Kernel
import proofs.«180533_j54262616818367_2_alg».proof.Proof.Gen.Kernel.Skeleton
import proofs.«180533_j54262616818367_2_alg».proof.Proof.Gen.Kernel.Launch
import proofs.«180533_j54262616818367_2_alg».proof.Proof.Gen.Kernel.Points
import proofs.«180533_j54262616818367_2_alg».proof.Proof.Gen.Kernel.Frame
import proofs.«180533_j54262616818367_2_alg».proof.Proof.Gen.KernelIdeal
import proofs.«180533_j54262616818367_2_alg».proof.Proof.Gen.KernelIdeal.Skeleton
import proofs.«180533_j54262616818367_2_alg».proof.Proof.Gen.KernelIdeal.Launch
import proofs.«180533_j54262616818367_2_alg».proof.Proof.Gen.KernelIdeal.Points
import proofs.«180533_j54262616818367_2_alg».proof.Proof.Gen.KernelIdeal.Frame
import proofs.«180533_j54262616818367_2_alg».proof.Proof.Gen.ReferenceIdeal
import proofs.«180533_j54262616818367_2_alg».proof.Proof.Gen.Pre_finite_inputs
import proofs.«180533_j54262616818367_2_alg».proof.Proof.KernelRun
import proofs.«180533_j54262616818367_2_alg».proof.Proof.KernelValue
import proofs.«180533_j54262616818367_2_alg».proof.Proof.RefRun
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is a straight line of host operations none of which writes an argument. -/
theorem frame_referenceIdeal : Cert.frame_ReferenceIdeal := fun m ρ _ =>
  (θ_run Cert.ReferenceIdeal.defs _ _).mono (fun _ h c => (h c).2.2) (Cert.ReferenceIdeal.Line.run (F := Ideal) m ρ)

/-- From memories agreeing on the six arguments both programs end with h and z at the same functions of them. -/
theorem algebraic : Cert.algebraic_KernelIdeal_ReferenceIdeal := by
  intro m ρ m' ρ' _ hagree
  refine ⟨fun c => Cert.KernelIdeal.Spec.result0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)),
    fun c => Cert.KernelIdeal.Spec.result1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c =>
      ⟨(h c Cert.KernelIdeal.main_v47 (by decide)).trans (Cert.KernelIdeal.Final.last_result0 m ρ c),
       (h c Cert.KernelIdeal.main_v64 (by decide)).trans (Cert.KernelIdeal.Final.last_result1 m ρ c),
       (h c Cert.KernelIdeal.main_arg0 (by decide)).trans (Cert.KernelIdeal.Gen.W8_main_arg0 m ρ c),
       (h c Cert.KernelIdeal.main_arg1 (by decide)).trans (Cert.KernelIdeal.Gen.W8_main_arg1 m ρ c),
       (h c Cert.KernelIdeal.main_arg2 (by decide)).trans (Cert.KernelIdeal.Gen.W8_main_arg2 m ρ c),
       (h c Cert.KernelIdeal.main_arg3 (by decide)).trans (Cert.KernelIdeal.Gen.W8_main_arg3 m ρ c),
       (h c Cert.KernelIdeal.main_arg4 (by decide)).trans (Cert.KernelIdeal.Gen.W8_main_arg4 m ρ c),
       (h c Cert.KernelIdeal.main_arg5 (by decide)).trans (Cert.KernelIdeal.Gen.W8_main_arg5 m ρ c)⟩)
      (Cert.KernelIdeal.Whole.run_all m ρ)
  · refine (θ_run Cert.ReferenceIdeal.defs _ _).mono (fun r h c => ?_) (Cert.ReferenceIdeal.Line.run (F := Ideal) m' ρ')
    obtain ⟨h0, h1, hargs⟩ := h c
    obtain ⟨a0, a1, a2, a3, a4, a5⟩ := hagree c
    refine ⟨h0.trans ?_, h1.trans ?_, hargs⟩
    · rw [a0, a1, a2, a5]
    · rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
